-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S524288x128 .f32) (main_arg1 : FVec F S128x128 .f32) (main_arg2 : FVec F S128x128 .f32) (main_arg3 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S524288x128 : Shape := ⟨2, ![524288, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S8192x128 : Shape := ⟨2, ![8192, 128]⟩

abbrev nBuf : Space → Nat
  | .hbm => 38
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .bf16⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S524288x128, .f32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_cst_5 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x128 : S_.BroadcastsInDim S128x128 (![] : Fin 0 → Fin S128x128.rank)
  bitsLt_bf16_f32 : FTy.bits .bf16 < FTy.bits .f32
  bcast_S_S128 : S_.BroadcastsInDim S128 (![] : Fin 0 → Fin S128.rank)
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_1_0_0_n_n_wf : DotDims.WF S8192x128 S128x128 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S524288x128.size a
  hwx0_3 : ∀ i : grid0.Coords, EltTy.bits .f32 = 32 ∨ (Rect.block (s := S524288x128) S8192x128.size (cc0_transform_3 i) (hinb0_3 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S524288x128, .f32⟩
  | .hbm, ⟨22, _⟩ => ⟨S524288x128, .f32⟩
  | .hbm, ⟨23, _⟩ => ⟨S524288x128, .f32⟩
  | .hbm, ⟨24, _⟩ => ⟨S_, .f32⟩
  | .hbm, ⟨25, _⟩ => ⟨S524288x128, .f32⟩
  | .hbm, ⟨26, _⟩ => ⟨S524288x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S524288x128, .f32⟩
  | .hbm, ⟨31, _⟩ => ⟨S524288x128, .f32⟩
  | .hbm, ⟨32, _⟩ => ⟨S_, .f32⟩
  | .hbm, ⟨33, _⟩ => ⟨S524288x128, .f32⟩
  | .hbm, ⟨34, _⟩ => ⟨S524288x128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128x128, .f32⟩
  | .hbm, ⟨51, _⟩ => ⟨S524288x128, .f32⟩
  | .hbm, ⟨52, _⟩ => ⟨S1x128, .f32⟩
  | .hbm, ⟨53, _⟩ => ⟨S524288x128, .f32⟩
  | .hbm, ⟨54, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_cst_5 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v13 : Ref sig .tc := ⟨.hbm, 34, rfl⟩
abbrev main_cst_6 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_7 : Ref sig .tc := ⟨.hbm, 39, rfl⟩
abbrev main_v17 : Ref sig .tc := ⟨.hbm, 40, rfl⟩
abbrev main_v18 : Ref sig .tc := ⟨.hbm, 41, rfl⟩
abbrev main_cst_8 : Ref sig .tc := ⟨.hbm, 42, rfl⟩
abbrev main_cst_9 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S_S524288x128 : S_.BroadcastsInDim S524288x128 (![] : Fin 0 → Fin S524288x128.rank)
  bcast_S_S128 : S_.BroadcastsInDim S128 (![] : Fin 0 → Fin S128.rank)
  transposes_S128x128_S128x128_1_0 : S128x128.Transposes [1, 0] S128x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.FixedPointSpec.lean ====
/-
  A linear layer whose weights are signed powers of two, on inputs rounded to a fixed-point grid.

  One entry is rounded to the grid of step 2^-16 by taking the floor of its multiple of 2^16, scaling back by
  2^-16, and clamping the result to [-32768, 32767]. One weight is exp (log 2 * round (clamp shift to [-14, 0]))
  times the sign of the rounded sign entry. The result at row n and output o is the sum over the 128 input features
  k of the rounded input (n, k) times the weight (o, k), plus the rounded bias o.

  The two programs reach the multiple of 2^16 differently: one multiplies by the word that denotes 2^16, the other
  divides by the word that denotes 2^-16. On the extended reals a quotient by a nonzero real is the product with its
  reciprocal, at the infinities too, so the two agree at every entry and no finiteness of the inputs is used.
-/
import Idealize.ShloMosaic.PureOps.Ideal
import Idealize.ShloMosaic.Lib.ValueIdx

noncomputable section

namespace Cert.ShiftLinear

open Idealize.ShloMosaic Idealize.ShloMosaic.ValueIdx

/-! ## The two scale words -/

/-- The word 0x47800000 denotes 2^16 = 65536. -/
theorem word_two_pow_16 : Ideal.ofBits .f32 0x47800000#32 = ((65536 : ℝ) : EReal) := by
  simp [Ideal.ofBits, Ideal.ieee, -EReal.coe_mul]; norm_num

/-- The word 0x37800000 denotes 2^-16 = 1 / 65536. -/
theorem word_two_pow_neg_16 : Ideal.ofBits .f32 0x37800000#32 = ((1 / 65536 : ℝ) : EReal) := by
  simp [Ideal.ofBits, Ideal.ieee, -EReal.coe_mul]; norm_num

/-- Dividing by 2^-16 is multiplying by 2^16, on every extended real: the quotient by a nonzero real is the product with
    its reciprocal, and the reciprocal of 1 / 65536 is 65536. -/
theorem div_step_eq_mul_scale (x : EReal) :
    Ideal.div x (Ideal.ofBits .f32 0x37800000#32) = x * Ideal.ofBits .f32 0x47800000#32 := by
  rw [word_two_pow_neg_16, word_two_pow_16, Ideal.div_coe (by norm_num : (1 / 65536 : ℝ) ≠ 0)]
  norm_num

/-! ## One entry, one weight, one result -/

/-- An entry rounded down to the grid of step 2^-16 and clamped to [-32768, 32767] (the words 0xC7000000 and
    0x46FFFE00), the multiple of 2^16 taken as a product. -/
def toFixed (x : EReal) : EReal :=
  min (Ideal.ofBits .f32 0x46FFFE00#32) (max (Ideal.ofBits .f32 0xC7000000#32)
    (Ideal.liftRound Int.floor (x * Ideal.ofBits .f32 0x47800000#32) * Ideal.ofBits .f32 0x37800000#32))

/-- The same entry with the multiple of 2^16 taken as a quotient by 2^-16: the same value. -/
theorem toFixed_of_div (x : EReal) :
    min (Ideal.ofBits .f32 0x46FFFE00#32) (max (Ideal.ofBits .f32 0xC7000000#32)
      (Ideal.liftRound Int.floor (Ideal.div x (Ideal.ofBits .f32 0x37800000#32)) * Ideal.ofBits .f32 0x37800000#32))
      = toFixed x := by
  rw [div_step_eq_mul_scale]; rfl

/-- One weight from its shift entry `s` and its sign entry `g`: the shift clamped to [-14, 0] (the words 0xC1600000
    and 0) and rounded to the nearest integer, ties to even, then exp of the word 0x3F317218 (log 2 as a float) times
    it, times the sign of the rounded sign entry. -/
def shiftWeight (s g : EReal) : EReal :=
  Ideal.exp (Ideal.ofBits .f32 0x3F317218#32 * Ideal.liftRound Ideal.roundHalfEven
      (min (Ideal.ofBits .f32 0x00000000#32) (max (Ideal.ofBits .f32 0xC1600000#32) s)))
    * Ideal.sign (Ideal.liftRound Ideal.roundHalfEven g)

/-- The result at row `n` and output `o`. -/
def resultAt (x : (⟨2, ![524288, 128]⟩ : Shape).Idx → EReal) (s g : (⟨2, ![128, 128]⟩ : Shape).Idx → EReal)
    (b : (⟨1, ![128]⟩ : Shape).Idx → EReal) (n : Fin 524288) (o : Fin 128) : EReal :=
  (∑ k : Fin 128, toFixed (x (ix2 n k)) * shiftWeight (s (ix2 o k)) (g (ix2 o k))) + toFixed (b (ix1 o))

/-- The whole result array as one function of the four argument arrays. -/
def result (x : (⟨2, ![524288, 128]⟩ : Shape).Idx → EReal) (s g : (⟨2, ![128, 128]⟩ : Shape).Idx → EReal)
    (b : (⟨1, ![128]⟩ : Shape).Idx → EReal) : (⟨2, ![524288, 128]⟩ : Shape).Idx → EReal :=
  fun i => resultAt x s g b (i 0) (i 1)

theorem result_ix2 (x : (⟨2, ![524288, 128]⟩ : Shape).Idx → EReal) (s g : (⟨2, ![128, 128]⟩ : Shape).Idx → EReal)
    (b : (⟨1, ![128]⟩ : Shape).Idx → EReal) (n : Fin 524288) (o : Fin 128) :
    result x s g b (ix2 n o) = resultAt x s g b n o := rfl

end Cert.ShiftLinear

end
-- ==== Proof.ReferenceValue.lean ====
/-
  The reference program's result, read one entry at a time, is the specification `Cert.ShiftLinear.result`.

  The reference rounds the input and the bias to the fixed-point grid with a quotient by 2^-16, builds the weights,
  transposes them, contracts the rounded input's feature axis with the transposed weights' first axis, and adds the
  rounded bias along the rows. Read at row n and output o: the contraction is the sum over k of the rounded input
  (n, k) times the transposed weights (k, o), which are the weights (o, k); the bias row broadcast reads the bias at o.
-/
import proofs.«181257_j46866683134638_2_alg».proof.Proof.Gen.ReferenceIdeal.Read
import proofs.«181257_j46866683134638_2_alg».proof.Proof.FixedPointSpec

noncomputable section

namespace Cert.ShiftLinear.Ref

open Cert.ReferenceIdeal Cert.ReferenceIdeal.Read Idealize.ShloMosaic Idealize.ShloMosaic.ValueIdx Cert.ShiftLinear

/-- The reference's rounded and clamped input, at any entry: the quotient form of `toFixed`. -/
theorem rounded_input (x0 : (⟨S524288x128, .f32⟩ : BufTy).Contents (Elt Ideal)) (j : S524288x128.Idx) :
    val_main_v13 (F := Ideal) x0 j = toFixed (x0 j) :=
  toFixed_of_div (x0 j)

/-- The reference's rounded and clamped bias, at any entry. -/
theorem rounded_bias (x3 : (⟨S128, .f32⟩ : BufTy).Contents (Elt Ideal)) (j : S128.Idx) :
    val_main_v19 (F := Ideal) x3 j = toFixed (x3 j) :=
  toFixed_of_div (x3 j)

/-- The reference's weights, at any entry. -/
theorem weights (x1 x2 : (⟨S128x128, .f32⟩ : BufTy).Contents (Elt Ideal)) (j : S128x128.Idx) :
    val_main_v7 (F := Ideal) x1 x2 j = shiftWeight (x1 j) (x2 j) := rfl

/-- The reference's result is the specification, entry by entry. -/
theorem result_eq (x0 : (⟨S524288x128, .f32⟩ : BufTy).Contents (Elt Ideal)) (x1 x2 : (⟨S128x128, .f32⟩ : BufTy).Contents (Elt Ideal))
    (x3 : (⟨S128, .f32⟩ : BufTy).Contents (Elt Ideal)) :
    val_main_v24 (F := Ideal) x0 x1 x2 x3 = result x0 x1 x2 x3 := by
  funext i
  obtain ⟨n, o, rfl⟩ : ∃ (n : Fin 524288) (o : Fin 128), i = ix2 n o := ⟨i 0, i 1, eq_ix2 i⟩
  have el : ∀ k : Fin 128, lidx_main_v21 (ix2 n o) k = ix2 n k := fun k => funext fun a => Fin.ext (by
    match a with
    | ⟨0, _⟩ => rfl
    | ⟨1, _⟩ => rfl)
  have er : ∀ k : Fin 128, idx_main_v20 (ridx_main_v21 (ix2 n o) k) = ix2 o k := fun k => funext fun a => Fin.ext (by
    match a with
    | ⟨0, _⟩ => rfl
    | ⟨1, _⟩ => rfl)
  have eb : idx_main_v22 (idx_main_v23 (ix2 n o)) = ix1 o := funext fun a => Fin.ext (by
    match a with
    | ⟨0, _⟩ => rfl)
  rw [val_main_v24_apply, val_main_v21_apply, val_main_v23_apply, val_main_v22_apply, rounded_bias, eb, result_ix2]
  show (∑ k : Fin 128, _) + _ = _
  unfold resultAt
  refine congrArg (· + toFixed (x3 (ix1 o))) (Finset.sum_congr rfl fun k _ => ?_)
  rw [val_main_v20_apply, rounded_input, weights, el, er]

end Cert.ShiftLinear.Ref

end
-- ==== Proof.KernelBody.lean ====
/-
  What the kernel body stores, read at one entry of its output block.

  At a grid point the body loads a block of 8192 input rows, the whole 128 x 128 weight array and the 1 x 128 bias row.
  It rounds the input block to the fixed-point grid (the multiple of 2^16 taken as a product), contracts the feature axis
  of the rounded block with the feature axis of the weights into a zero accumulator, and adds the bias row to every row.
  At row r of the block and output o that is the sum over the 128 features k of the rounded input (r, k) times the
  weight (o, k), plus the bias row at o. Changes of float format are the identity on the extended reals, a shape cast
  to the same shape is the identity, and a sum into the zero accumulator is the sum.
-/
import proofs.«181257_j46866683134638_2_alg».proof.Proof.Gen.KernelIdeal.Skeleton
import proofs.«181257_j46866683134638_2_alg».proof.Proof.FixedPointSpec
import Idealize.ShloMosaic.PureOps.Ideal.Laws
import Idealize.ShloMosaic.Lib.ValueIdx
import Idealize.ShloMosaic.Lib.ValueLayout
import Idealize.ShloMosaic.Lib.Pipeline.Value

noncomputable section

namespace Cert.ShiftLinear.Body

open Cert.KernelIdeal Cert.KernelIdeal.Gen Idealize.ShloMosaic Idealize.ShloMosaic.ValueIdx Cert.ShiftLinear

/-- The left operand's row coordinate is the output's row: axis 0 of the left operand is not contracted. -/
theorem lhs_row (i : S8192x128.Idx) (q : dot_S8192x128_S128x128_S8192x128_1_1_0_0_n_n.contr.Idx) :
    (dot_S8192x128_S128x128_S8192x128_1_1_0_0_n_n.lhsIdx i q 0).val = (i 0).val := by
  unfold DotDims.lhsIdx
  rw [dif_neg (show ¬(0 : Fin S8192x128.rank) ∈ dot_S8192x128_S128x128_S8192x128_1_1_0_0_n_n.lhsBatch by decide),
    dif_pos (show (0 : Fin S8192x128.rank) ∈ dot_S8192x128_S128x128_S8192x128_1_1_0_0_n_n.lhsNonContracting by decide)]
  rfl

/-- The left operand's feature coordinate is the contraction position. -/
theorem lhs_feature (i : S8192x128.Idx) (q : dot_S8192x128_S128x128_S8192x128_1_1_0_0_n_n.contr.Idx) :
    (dot_S8192x128_S128x128_S8192x128_1_1_0_0_n_n.lhsIdx i q 1).val = (q ⟨0, by decide⟩).val :=
  dot_S8192x128_S128x128_S8192x128_1_1_0_0_n_n.lhsIdx_val_of_single rfl i q

/-- The right operand's first coordinate is the output's column: axis 0 of the right operand is not contracted. -/
theorem rhs_output (i : S8192x128.Idx) (q : dot_S8192x128_S128x128_S8192x128_1_1_0_0_n_n.contr.Idx) :
    (dot_S8192x128_S128x128_S8192x128_1_1_0_0_n_n.rhsIdx i q 0).val = (i 1).val := by
  unfold DotDims.rhsIdx
  rw [dif_neg (show ¬(0 : Fin S128x128.rank) ∈ dot_S8192x128_S128x128_S8192x128_1_1_0_0_n_n.rhsBatch by decide),
    dif_pos (show (0 : Fin S128x128.rank) ∈ dot_S8192x128_S128x128_S8192x128_1_1_0_0_n_n.rhsNonContracting by decide)]
  rfl

/-- The right operand's second coordinate, its contracted axis, is the contraction position. -/
theorem rhs_feature (i : S8192x128.Idx) (q : dot_S8192x128_S128x128_S8192x128_1_1_0_0_n_n.contr.Idx) :
    (dot_S8192x128_S128x128_S8192x128_1_1_0_0_n_n.rhsIdx i q 1).val = (q ⟨0, by decide⟩).val :=
  dot_S8192x128_S128x128_S8192x128_1_1_0_0_n_n.rhsIdx_val_of_single rfl i q

/-- So at output (r, o) and feature k the left operand is read at (r, k) … -/
theorem lhs_at (r : Fin 8192) (o k : Fin 128) :
    dot_S8192x128_S128x128_S8192x128_1_1_0_0_n_n.lhsIdx (ix2 r o)
      ((contrEquiv1 dot_S8192x128_S128x128_S8192x128_1_1_0_0_n_n 128 rfl rfl).symm k) = ix2 r k := by
  have hk := contrEquiv1_symm_val dot_S8192x128_S128x128_S8192x128_1_1_0_0_n_n 128 rfl rfl k
  exact funext fun a => Fin.ext (by
    match a with
    | ⟨0, _⟩ => exact lhs_row _ _
    | ⟨1, _⟩ => exact (lhs_feature _ _).trans hk)

/-- … and the right operand at (o, k). -/
theorem rhs_at (r : Fin 8192) (o k : Fin 128) :
    dot_S8192x128_S128x128_S8192x128_1_1_0_0_n_n.rhsIdx (ix2 r o)
      ((contrEquiv1 dot_S8192x128_S128x128_S8192x128_1_1_0_0_n_n 128 rfl rfl).symm k) = ix2 o k := by
  have hk := contrEquiv1_symm_val dot_S8192x128_S128x128_S8192x128_1_1_0_0_n_n 128 rfl rfl k
  exact funext fun a => Fin.ext (by
    match a with
    | ⟨0, _⟩ => exact rhs_output _ _
    | ⟨1, _⟩ => exact (rhs_feature _ _).trans hk)

/-- The product of two blocks into the zero accumulator, at (r, o): the sum over the features. -/
theorem contraction_at (L : FVec Ideal S8192x128 .bf16) (R : FVec Ideal S128x128 .bf16) (r : Fin 8192) (o : Fin 128) :
    matmul dot_S8192x128_S128x128_S8192x128_1_1_0_0_n_n none L R (constant (F := Ideal) S8192x128 .f32 0x00000000#32) (ix2 r o)
      = ∑ k : Fin 128, L (ix2 r k) * R (ix2 o k) := by
  simp only [matmul]
  rw [Ideal.matmul_constant_zero_apply,
    ← Equiv.sum_comp (contrEquiv1 dot_S8192x128_S128x128_S8192x128_1_1_0_0_n_n 128 rfl rfl).symm]
  refine Finset.sum_congr rfl fun k _ => ?_
  rw [lhs_at, rhs_at]

/-- The stored value at row `r` and output `o` of the block. -/
theorem stored_at (v0 : FVec Ideal S8192x128 .f32) (v11 : FVec Ideal S128x128 .bf16) (v14 : FVec Ideal S1x128 .f32)
    (r : Fin 8192) (o : Fin 128) :
    k0_pay1 (F := Ideal) v0 v11 v14 (ix2 r o)
      = (∑ k : Fin 128, toFixed (v0 (ix2 r k)) * v11 (ix2 o k)) + v14 (ix2 (0 : Fin 1) o) := by
  unfold k0_pay1
  rw [shapeCast_self, shapeCast_self]
  refine (addf_apply _ _ _).trans ?_
  rw [contraction_at, broadcastTo_1b_ab_apply]
  rfl

end Cert.ShiftLinear.Body

end
-- ==== Proof.KernelValue.lean ====
/-
  The kernel's result array is the specification `Cert.ShiftLinear.result` of the four argument arrays.

  The grid has 64 points. Point t reads rows 8192 t … 8192 t + 8191 of the input, the whole weight array and the whole
  bias row, and writes rows 8192 t … 8192 t + 8191 of the result. The weight array and the bias row are computed before
  the grid runs: the weights entry by entry from the shift and sign arrays, the bias row by rounding the bias to the
  fixed-point grid (the multiple of 2^16 taken as a product) and laying its 128 entries out as one row.

  So entry (r, o) of the block point t writes is the sum over k of the rounded input (8192 t + r, k) times the weight
  (o, k), plus the rounded bias o: the specification at (8192 t + r, o). Row n of the result lies in the block of point
  n / 8192, so the 64 blocks cover the array and the array after the run is the specification everywhere.
-/
import proofs.«181257_j46866683134638_2_alg».proof.Proof.Gen.KernelIdeal.Value
import proofs.«181257_j46866683134638_2_alg».proof.Proof.KernelBody
import proofs.«181257_j46866683134638_2_alg».proof.Proof.FixedPointSpec
import Idealize.ShloMosaic.Lib.ValueLayout
import Idealize.ShloMosaic.Lib.StableHlo.Run

set_option maxRecDepth 16384

noncomputable section

namespace Cert.ShiftLinear.Kernel

open Cert.KernelIdeal Cert.KernelIdeal.Gen Idealize.ShloMosaic Idealize.ShloMosaic.TcCoe Idealize.SL.Sem
open Idealize.ShloMosaic.StableHlo Idealize.ShloMosaic.ValueIdx Cert.ShiftLinear
open Idealize.ShloMosaic.Pipeline (Dat)

variable (m : (ℓ : Loc nD τ sig) → Buf (Elt Ideal) ℓ) (ρ : Dev nD → PrngReg)

/-! ## The two arrays computed before the grid runs -/

/-- The weight array the grid reads is, entry by entry, the weight of the shift and sign entries (its change of float
    format is the identity). -/
theorem weights_found (c : Dev nD) :
    (V m c main_v8 : S128x128.Idx → EReal)
      = fun i => shiftWeight (m ((c : Thread nD τ).loc main_arg1) i) (m ((c : Thread nD τ).loc main_arg2) i) := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The bias row the grid reads is the rounded bias laid out as one row of 128. -/
theorem bias_row_found (c : Dev nD) :
    (V m c main_v15 : S1x128.Idx → EReal)
      = shapeCast S1x128 (fun j : S128.Idx => toFixed (m ((c : Thread nD τ).loc main_arg3) j)) shapeCasts_S128_S1x128 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- … so its entry (0, o) is the rounded bias o. -/
theorem bias_row_at (c : Dev nD) (o : Fin 128) :
    V m c main_v15 (ix2 (0 : Fin 1) o) = toFixed (m ((c : Thread nD τ).loc main_arg3) (ix1 o)) := by
  rw [bias_row_found]
  exact shapeCast_a_1a_apply _ shapeCasts_S128_S1x128 (0 : Fin 1) o

/-! ## The blocks -/

theorem zero_offsets : (![0, 0] : Fin 2 → Nat) = fun _ => 0 := funext fun a => by fin_cases a <;> rfl

/-- The printed index maps, decided over the 64 grid points: the input block moves with the output block along the
    rows, the weight array and the bias row are read whole at every point, and the output's row-block index is at most 63. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 63 :=
  (by decide +kernel : ∀ t : Fin grid0.N, _)

/-- Every row block of the result is some point's. -/
theorem block_of_row : ∀ q : Fin 64, ∃ t : Fin cfg0.N, win0_3.index t = ![q.val, 0] :=
  (by decide +kernel : ∀ q : Fin 64, ∃ t : Fin grid0.N, win0_3.index t = ![q.val, 0])

/-- WHAT POINT `t` WRITES BACK is block `t` of the specification of the argument arrays. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1))
        (m ((c : Thread nD τ).loc main_arg2)) (m ((c : Thread nD τ).loc main_arg3))) := by
  rw [Cert.KernelIdeal.Value.flushed3]
  unfold out0_3
  rw [View.canon_unit_zero zero_offsets]
  simp only [View.ld_unit_zero (S := S8192x128) zero_offsets, View.ld_unit_zero (S := S128x128) zero_offsets,
    View.ld_unit_zero (S := S1x128) zero_offsets]
  obtain ⟨e00, e01, e10, e11, e20, e21, e31, e30⟩ := block_indices t
  funext j
  obtain ⟨r, o, rfl⟩ : ∃ (r : Fin 8192) (o : Fin 128), j = ix2 r o := ⟨j 0, j 1, eq_ix2 j⟩
  have hrow : win0_3.index t (0 : Fin 2) * 8192 + r.val < 524288 := by have := r.isLt; omega
  -- where the block's entry (r, o) sits in the result array
  have hout : ((cfg0.win 3).blk t).view.emb (ix2 r o)
      = ix2 (⟨win0_3.index t (0 : Fin 2) * 8192 + r.val, hrow⟩ : Fin 524288) o := by
    funext a; apply Fin.ext
    match a with
    | ⟨0, _⟩ => show win0_3.index t (0 : Fin 2) * 8192 + 1 * r.val = win0_3.index t (0 : Fin 2) * 8192 + r.val; omega
    | ⟨1, _⟩ => show win0_3.index t (1 : Fin 2) * 128 + 1 * o.val = o.val; omega
  -- the input block's row r is the array's row 8192 t + r
  have hin : ∀ k : Fin 128, iblk m c 0 t (ix2 r k)
      = m ((c : Thread nD τ).loc main_arg0) (ix2 (⟨win0_3.index t (0 : Fin 2) * 8192 + r.val, hrow⟩ : Fin 524288) k) := fun k => by
    show V m c main_arg0 (((cfg0.win 0).blk t).view.emb (ix2 r k)) = _
    rw [V_main_arg0]
    refine congrArg _ (funext fun a => Fin.ext ?_)
    match a with
    | ⟨0, _⟩ => show win0_0.index t (0 : Fin 2) * 8192 + 1 * r.val = win0_3.index t (0 : Fin 2) * 8192 + r.val; omega
    | ⟨1, _⟩ => show win0_0.index t (1 : Fin 2) * 128 + 1 * k.val = k.val; omega
  -- the weight block is the whole weight array
  have hw : ∀ k : Fin 128, iblk m c 1 t (ix2 o k)
      = shiftWeight (m ((c : Thread nD τ).loc main_arg1) (ix2 o k)) (m ((c : Thread nD τ).loc main_arg2) (ix2 o k)) := fun k => by
    show V m c main_v8 (((cfg0.win 1).blk t).view.emb (ix2 o k)) = _
    have he : ((cfg0.win 1).blk t).view.emb (ix2 o k) = ix2 o k := by
      funext a; apply Fin.ext
      match a with
      | ⟨0, _⟩ => show win0_1.index t (0 : Fin 2) * 128 + 1 * o.val = o.val; omega
      | ⟨1, _⟩ => show win0_1.index t (1 : Fin 2) * 128 + 1 * k.val = k.val; omega
    rw [he, weights_found]
  -- the bias block is the whole bias row
  have hb : iblk m c 2 t (ix2 (0 : Fin 1) o) = toFixed (m ((c : Thread nD τ).loc main_arg3) (ix1 o)) := by
    show V m c main_v15 (((cfg0.win 2).blk t).view.emb (ix2 (0 : Fin 1) o)) = _
    have he : ((cfg0.win 2).blk t).view.emb (ix2 (0 : Fin 1) o) = ix2 (0 : Fin 1) o := by
      funext a; apply Fin.ext
      match a with
      | ⟨0, _⟩ => show win0_2.index t (0 : Fin 2) * 1 + 1 * 0 = 0; omega
      | ⟨1, _⟩ => show win0_2.index t (1 : Fin 2) * 128 + 1 * o.val = o.val; omega
    rw [he, bias_row_at]
  show k0_pay1 (iblk m c 0 t) (iblk m c 1 t) (iblk m c 2 t) (ix2 r o)
    = result _ _ _ _ (((cfg0.win 3).blk t).view.emb (ix2 r o))
  rw [hout, result_ix2]
  refine (Body.stored_at (iblk m c 0 t) (iblk m c 1 t) (iblk m c 2 t) r o).trans ?_
  unfold resultAt
  rw [hb]
  refine congrArg (· + toFixed (m ((c : Thread nD τ).loc main_arg3) (ix1 o))) (Finset.sum_congr rfl fun k _ => ?_)
  rw [hin k, hw k]

/-- An index of the result array is in point `t`'s block iff each coordinate is in the block's range on its axis. -/
theorem mem_block (t : Fin cfg0.N) (i : S524288x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v16).slice (win0_3.rect t)).set ↔ _
  rw [View.set_slice_whole, Rect.mem_set_unit]
  exact Iff.rfl

/-- The 64 blocks cover the result array: row n is in the block of point n / 8192. -/
theorem covered (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  obtain ⟨t, ht⟩ := block_of_row ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 128 ≤ (i 1).val ∧ (i 1).val < win0_3.index t (1 : Fin 2) * 128 + 128
    omega

/-- THE RESULT ARRAY after the run is the specification of the argument arrays. -/
theorem final (c : Dev nD) :
    (dats m 0 c).arrAt 3 cfg0.N = result (m ((c : Thread nD τ).loc main_arg0)) (m ((c : Thread nD τ).loc main_arg1))
      (m ((c : Thread nD τ).loc main_arg2)) (m ((c : Thread nD τ).loc main_arg3)) :=
  (dats m 0 c).arrAt_eq_of_cover 3 _ (fun t _ => flushed_eq m c t) covered

/-- The kernel's run: every weakly fair execution terminates with the result array at the specification and the
    arguments unchanged. -/
theorem run : θ_run defs (onTc (τ := τ) (main (F := Ideal))) ⟨m, fun _ => 0, ρ⟩ fun r => ∀ c : Dev nD,
      r.2.mem ((c : Thread nD τ).loc main_v16) = result (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.ShiftLinear.Kernel

end
-- ==== Proof.lean ====
/-
  A linear layer with power-of-two weights on fixed-point inputs: the kernel and its reference compute one function.

  Both programs round every input entry and every bias entry down to the grid of step 2^-16 and clamp it to
  [-32768, 32767]; both build the weight (o, k) as exp (log 2 * round (clamp shift to [-14, 0])) times the sign of the rounded
  sign entry; both return, at row n and output o, the sum over the 128 features k of the rounded input (n, k) times the
  weight (o, k), plus the rounded bias o (`Cert.ShiftLinear.result`, Proof/FixedPointSpec.lean).

  They differ in three places, none of which changes a value on the extended reals. The kernel takes the multiple of 2^16
  as a product with 2^16 where the reference takes a quotient by 2^-16: a quotient by a nonzero real is the product with its
  reciprocal at every extended real, the infinities included, so no finiteness of the inputs is used. The kernel narrows
  the rounded inputs and the weights to a shorter float format before multiplying: a change of format is the identity on
  the extended reals. The kernel contracts the feature axes of a block of 8192 rows and of the weights into a zero
  accumulator, 64 blocks covering the rows, where the reference contracts the whole rounded input with the transposed
  weights: the same sum over k at every entry.

  Proof/ReferenceValue.lean reads the reference's result entry by entry, Proof/KernelBody.lean the value the kernel stores
  at one entry of a block, Proof/KernelValue.lean the kernel's whole result array; here the two runs are set side by side.
  The kernel is its own idealization (no operation was rewritten), so that conjunct is trivial.
-/
import proofs.«181257_j46866683134638_2_alg».proof.Defs
import proofs.«181257_j46866683134638_2_alg».proof.Proof.Gen.Kernel
import proofs.«181257_j46866683134638_2_alg».proof.Proof.Gen.Kernel.Skeleton
import proofs.«181257_j46866683134638_2_alg».proof.Proof.Gen.Kernel.Launch
import proofs.«181257_j46866683134638_2_alg».proof.Proof.Gen.Kernel.Points
import proofs.«181257_j46866683134638_2_alg».proof.Proof.Gen.Kernel.Frame
import proofs.«181257_j46866683134638_2_alg».proof.Proof.Gen.KernelIdeal
import proofs.«181257_j46866683134638_2_alg».proof.Proof.Gen.KernelIdeal.Skeleton
import proofs.«181257_j46866683134638_2_alg».proof.Proof.Gen.KernelIdeal.Launch
import proofs.«181257_j46866683134638_2_alg».proof.Proof.Gen.KernelIdeal.Points
import proofs.«181257_j46866683134638_2_alg».proof.Proof.Gen.KernelIdeal.Frame
import proofs.«181257_j46866683134638_2_alg».proof.Proof.Gen.ReferenceIdeal
import proofs.«181257_j46866683134638_2_alg».proof.Proof.Gen.Pre_finite_inputs
import proofs.«181257_j46866683134638_2_alg».proof.Proof.Gen.KernelIdeal.Value
import proofs.«181257_j46866683134638_2_alg».proof.Proof.Gen.ReferenceIdeal.Run
import proofs.«181257_j46866683134638_2_alg».proof.Proof.Gen.ReferenceIdeal.Read
import proofs.«181257_j46866683134638_2_alg».proof.Proof.FixedPointSpec
import proofs.«181257_j46866683134638_2_alg».proof.Proof.ReferenceValue
import proofs.«181257_j46866683134638_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's are both the
    specification of those arguments. -/
theorem algebraic : Cert.algebraic_KernelIdeal_ReferenceIdeal := by
  intro m ρ m' ρ' _ hagree
  refine ⟨_, Cert.ShiftLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ShiftLinear.Ref.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
